-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S400000 : Shape := ⟨1, ![400000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg6 : FVec F S256 .f32) (main_arg7 : FVec F S256x256 .f32) (main_arg8 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : IVec S400000 32) (main_arg2 : IVec S400000 32) (main_arg3 : FVec F S256x512 .f32) (main_arg4 : FVec F S512 .f32) (main_arg5 : FVec F S512x256 .f32) (main_arg6 : FVec F S256 .f32) (main_arg7 : FVec F S256x256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x512 .f32 := Host.absf main_arg3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_v13 main_v16
-- ==== Kernel.lean ====
abbrev S50000x256 : Shape := ⟨2, ![50000, 256]⟩
abbrev S400000 : Shape := ⟨1, ![400000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S2000x256 : Shape := ⟨2, ![2000, 256]⟩
abbrev S2000x512 : Shape := ⟨2, ![2000, 512]⟩
abbrev S1x512 : Shape := ⟨2, ![1, 512]⟩
abbrev S1x256 : Shape := ⟨2, ![1, 256]⟩
abbrev S_ : Shape := ⟨0, ![]⟩
abbrev S400000x1 : Shape := ⟨2, ![400000, 1]⟩
abbrev S400000x256 : Shape := ⟨2, ![400000, 256]⟩
abbrev S10000x256 : Shape := ⟨2, ![10000, 256]⟩
abbrev S10000 : Shape := ⟨1, ![10000]⟩
abbrev S10000x1 : Shape := ⟨2, ![10000, 1]⟩
abbrev S50000 : Shape := ⟨1, ![50000]⟩
abbrev S50000x1 : Shape := ⟨2, ![50000, 1]⟩
abbrev S2000 : Shape := ⟨1, ![2000]⟩
abbrev S2000x1 : Shape := ⟨2, ![2000, 1]⟩

abbrev nBuf : Space → Nat
  | .hbm => 61
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S400000, .i32⟩
  | .hbm, ⟨2, _⟩ => ⟨S400000, .i32⟩
  | .hbm, ⟨3, _⟩ => ⟨S256x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S50000x256, .f32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x256, .f32⟩
  | .hbm, ⟨19, _⟩ => ⟨S_, .f32⟩
  | .hbm, ⟨20, _⟩ => ⟨S10000x256, .f32⟩
  | .hbm, ⟨21, _⟩ => ⟨S400000x1, .i32⟩
  | .hbm, ⟨22, _⟩ => ⟨S10000x256, .f32⟩
  | .hbm, ⟨23, _⟩ => ⟨S_, .f32⟩
  | .hbm, ⟨24, _⟩ => ⟨S400000, .f32⟩
  | .hbm, ⟨25, _⟩ => ⟨S_, .f32⟩
  | .hbm, ⟨26, _⟩ => ⟨S10000, .f32⟩
  | .hbm, ⟨27, _⟩ => ⟨S400000x1, .i32⟩
  | .hbm, ⟨28, _⟩ => ⟨S10000, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000x1, .f32⟩
  | .hbm, ⟨33, _⟩ => ⟨S10000x256, .f32⟩
  | .hbm, ⟨34, _⟩ => ⟨S10000x256, .f32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S400000x256, .f32⟩
  | .hbm, ⟨44, _⟩ => ⟨S_, .f32⟩
  | .hbm, ⟨45, _⟩ => ⟨S50000x256, .f32⟩
  | .hbm, ⟨46, _⟩ => ⟨S400000x1, .i32⟩
  | .hbm, ⟨47, _⟩ => ⟨S50000x256, .f32⟩
  | .hbm, ⟨48, _⟩ => ⟨S_, .f32⟩
  | .hbm, ⟨49, _⟩ => ⟨S400000, .f32⟩
  | .hbm, ⟨50, _⟩ => ⟨S_, .f32⟩
  | .hbm, ⟨51, _⟩ => ⟨S50000, .f32⟩
  | .hbm, ⟨52, _⟩ => ⟨S400000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x256, .f32⟩
  | .hbm, ⟨59, _⟩ => ⟨S50000x256, .f32⟩
  | .hbm, ⟨60, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S512, .f32⟩
  | .local _ .vmem, ⟨4, _⟩ => ⟨S512x256, .f32⟩
  | .local _ .vmem, ⟨5, _⟩ => ⟨S256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  bcast_S_S400000 : S_.BroadcastsInDim S400000 (![] : Fin 0 → Fin S400000.rank)
  bcast_S400000_S400000x1_0 : S400000.BroadcastsInDim S400000x1 (![0] : Fin 1 → Fin S400000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  inb_S256x256_S256x256_0_0 : ∀ a, (![0, 0] : Fin 2 → Nat) a + S256x256.size a ≤ S256x256.size a
  h_S256x256 : 0 < S256x256.numel
  shapeCasts_S2000x256_S2000x256 : S2000x256.ShapeCasts S2000x256
  reduces_S2000x256_S2000 : S2000x256.Reduces [1] S2000
  shapeCasts_S2000_S2000x1 : S2000.ShapeCasts S2000x1
  broadcasts_S2000x1_S2000x256 : S2000x1.Broadcasts S2000x256
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  gather_S50000x256_S400000x1_S400000x256_1_0_n_n_0_1_1256_wf : GatherDims.WF S50000x256 S400000x1 S400000x256 [1] [0] [] [0] [] 1 ![1, 256]
  scatter_S10000x256_S400000x1_S400000x256_1_0_0_1_wf : ScatterDims.WF S10000x256 S400000x1 S400000x256 [1] [0] [0] 1
  scatter_S10000_S400000x1_S400000_n_0_0_1_wf : ScatterDims.WF S10000 S400000x1 S400000 [] [0] [0] 1
  gather_S10000x256_S400000x1_S400000x256_1_0_n_n_0_1_1256_wf : GatherDims.WF S10000x256 S400000x1 S400000x256 [1] [0] [] [0] [] 1 ![1, 256]
  scatter_S50000x256_S400000x1_S400000x256_1_0_0_1_wf : ScatterDims.WF S50000x256 S400000x1 S400000x256 [1] [0] [0] 1
  scatter_S50000_S400000x1_S400000_n_0_0_1_wf : ScatterDims.WF S50000 S400000x1 S400000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)

variable [Facts₀]

def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S10000x256_S400000x1_S400000x256_1_0_0_1 : ScatterDims S10000x256 S400000x1 S400000x256 where
  updateWindowDims := [1]
  insertedWindowDims := [0]
  scatterDimsToOperandDims := [0]
  indexVectorDim := 1
  wf := scatter_S10000x256_S400000x1_S400000x256_1_0_0_1_wf
def scatter_S10000_S400000x1_S400000_n_0_0_1 : ScatterDims S10000 S400000x1 S400000 where
  updateWindowDims := []
  insertedWindowDims := [0]
  scatterDimsToOperandDims := [0]
  indexVectorDim := 1
  wf := scatter_S10000_S400000x1_S400000_n_0_0_1_wf
def gather_S10000x256_S400000x1_S400000x256_1_0_n_n_0_1_1256 : GatherDims S10000x256 S400000x1 S400000x256 where
  offsetDims := [1]
  collapsedSliceDims := [0]
  operandBatchingDims := []
  startIndicesBatchingDims := []
  startIndexMap := [0]
  indexVectorDim := 1
  sliceSizes := ![1, 256]
  wf := gather_S10000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x256 : Shape := ⟨2, ![50000, 256]⟩
abbrev S400000 : Shape := ⟨1, ![400000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S50000x512 : Shape := ⟨2, ![50000, 512]⟩
abbrev S1x512 : Shape := ⟨2, ![1, 512]⟩
abbrev S_ : Shape := ⟨0, ![]⟩
abbrev S1x256 : Shape := ⟨2, ![1, 256]⟩
abbrev S400000x1 : Shape := ⟨2, ![400000, 1]⟩
abbrev S400000x256 : Shape := ⟨2, ![400000, 256]⟩
abbrev S10000x256 : Shape := ⟨2, ![10000, 256]⟩
abbrev S10000 : Shape := ⟨1, ![10000]⟩
abbrev S10000x1 : Shape := ⟨2, ![10000, 1]⟩
abbrev S50000 : Shape := ⟨1, ![50000]⟩
abbrev S50000x1 : Shape := ⟨2, ![50000, 1]⟩

abbrev nBuf : Space → Nat
  | .hbm => 96
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S400000, .i32⟩
  | .hbm, ⟨2, _⟩ => ⟨S400000, .i32⟩
  | .hbm, ⟨3, _⟩ => ⟨S256x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S50000x512, .f32⟩
  | .hbm, ⟨10, _⟩ => ⟨S1x512, .f32⟩
  | .hbm, ⟨11, _⟩ => ⟨S50000x512, .f32⟩
  | .hbm, ⟨12, _⟩ => ⟨S50000x512, .f32⟩
  | .hbm, ⟨13, _⟩ => ⟨S_, .f32⟩
  | .hbm, ⟨14, _⟩ => ⟨S50000x512, .f32⟩
  | .hbm, ⟨15, _⟩ => ⟨S50000x512, .f32⟩
  | .hbm, ⟨16, _⟩ => ⟨S50000x256, .f32⟩
  | .hbm, ⟨17, _⟩ => ⟨S1x256, .f32⟩
  | .hbm, ⟨18, _⟩ => ⟨S50000x256, .f32⟩
  | .hbm, ⟨19, _⟩ => ⟨S50000x256, .f32⟩
  | .hbm, ⟨20, _⟩ => ⟨S_, .f32⟩
  | .hbm, ⟨21, _⟩ => ⟨S50000x256, .f32⟩
  | .hbm, ⟨22, _⟩ => ⟨S50000x256, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x256, .f32⟩
  | .hbm, ⟨32, _⟩ => ⟨S_, .f32⟩
  | .hbm, ⟨33, _⟩ => ⟨S10000x256, .f32⟩
  | .hbm, ⟨34, _⟩ => ⟨S400000x1, .i32⟩
  | .hbm, ⟨35, _⟩ => ⟨S10000x256, .f32⟩
  | .hbm, ⟨36, _⟩ => ⟨S_, .f32⟩
  | .hbm, ⟨37, _⟩ => ⟨S400000, .f32⟩
  | .hbm, ⟨38, _⟩ => ⟨S_, .f32⟩
  | .hbm, ⟨39, _⟩ => ⟨S10000, .f32⟩
  | .hbm, ⟨40, _⟩ => ⟨S400000x1, .i32⟩
  | .hbm, ⟨41, _⟩ => ⟨S10000, .f32⟩
  | .hbm, ⟨42, _⟩ => ⟨S_, .f32⟩
  | .hbm, ⟨43, _⟩ => ⟨S10000, .f32⟩
  | .hbm, ⟨44, _⟩ => ⟨S10000, .f32⟩
  | .hbm, ⟨45, _⟩ => ⟨S10000x1, .f32⟩
  | .hbm, ⟨46, _⟩ => ⟨S10000x256, .f32⟩
  | .hbm, ⟨47, _⟩ => ⟨S10000x256, .f32⟩
  | .hbm, ⟨48, _⟩ => ⟨S_, .i32⟩
  | .hbm, ⟨49, _⟩ => ⟨S400000, .i32⟩
  | .hbm, ⟨50, _⟩ => ⟨S400000, .i1⟩
  | .hbm, ⟨51, _⟩ => ⟨S_, .i32⟩
  | .hbm, ⟨52, _⟩ => ⟨S400000, .i32⟩
  | .hbm, ⟨53, _⟩ => ⟨S400000, .i32⟩
  | .hbm, ⟨54, _⟩ => ⟨S400000, .i32⟩
  | .hbm, ⟨55, _⟩ => ⟨S400000x1, .i32⟩
  | .hbm, ⟨56, _⟩ => ⟨S400000x256, .f32⟩
  | .hbm, ⟨57, _⟩ => ⟨S_, .f32⟩
  | .hbm, ⟨58, _⟩ => ⟨S50000x256, .f32⟩
  | .hbm, ⟨59, _⟩ => ⟨S400000x1, .i32⟩
  | .hbm, ⟨60, _⟩ => ⟨S50000x256, .f32⟩
  | .hbm, ⟨61, _⟩ => ⟨S_, .f32⟩
  | .hbm, ⟨62, _⟩ => ⟨S400000, .f32⟩
  | .hbm, ⟨63, _⟩ => ⟨S_, .f32⟩
  | .hbm, ⟨64, _⟩ => ⟨S50000, .f32⟩
  | .hbm, ⟨65, _⟩ => ⟨S400000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x256, .f32⟩
  | .hbm, ⟨88, _⟩ => ⟨S50000x256, .f32⟩
  | .hbm, ⟨89, _⟩ => ⟨S50000x256, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x256, .f32⟩
  | .hbm, ⟨95, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_cst : Ref sig .tc := ⟨.hbm, 78, rfl⟩
abbrev main_call2_v0 : Ref sig .tc := ⟨.hbm, 79, rfl⟩
abbrev main_v53 : Ref sig .tc := ⟨.hbm, 80, rfl⟩
abbrev main_call3_cst : Ref sig .tc := ⟨.hbm, 81, rfl⟩
abbrev main_call3_v0 : Ref sig .tc := ⟨.hbm, 82, rfl⟩
abbrev main_call3_cst_0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_cst_1 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_v54 : Ref sig .tc := ⟨.hbm, 95, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  reducesTo_S50000x256_S50000_d1 : S50000x256.ReducesTo [1] S50000
  h_S_ : 0 < S_.numel
  dot_S50000x256_S256x512_S50000x512_1_0_0_1_n_n_wf : DotDims.WF S50000x256 S256x512 S50000x512 [1] [0] [0] [1] [] []
  dot_S50000x512_S512x256_S50000x256_1_0_0_1_n_n_wf : DotDims.WF S50000x512 S512x256 S50000x256 [1] [0] [0] [1] [] []
  gather_S50000x256_S400000x1_S400000x256_1_0_n_n_0_1_1256_wf : GatherDims.WF S50000x256 S400000x1 S400000x256 [1] [0] [] [0] [] 1 ![1, 256]
  scatter_S10000x256_S400000x1_S400000x256_1_0_0_1_wf : ScatterDims.WF S10000x256 S400000x1 S400000x256 [1] [0] [0] 1
  scatter_S10000_S400000x1_S400000_n_0_0_1_wf : ScatterDims.WF S10000 S400000x1 S400000 [] [0] [0] 1
  gather_S10000x256_S400000x1_S400000x256_1_0_n_n_0_1_1256_wf : GatherDims.WF S10000x256 S400000x1 S400000x256 [1] [0] [] [0] [] 1 ![1, 256]
  scatter_S50000x256_S400000x1_S400000x256_1_0_0_1_wf : ScatterDims.WF S50000x256 S400000x1 S400000x256 [1] [0] [0] 1
  scatter_S50000_S400000x1_S400000_n_0_0_1_wf : ScatterDims.WF S50000 S400000x1 S400000 [] [0] [0] 1
  dot_S50000x256_S256x256_S50000x256_1_0_0_1_n_n_wf : DotDims.WF S50000x256 S256x256 S50000x256 [1] [0] [0] [1] [] []

variable [Facts₀]

def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S10000x256_S400000x1_S400000x256_1_0_0_1 : ScatterDims S10000x256 S400000x1 S400000x256 where
  updateWindowDims := [1]
  insertedWindowDims := [0]
  scatterDimsToOperandDims := [0]
  indexVectorDim := 1
  wf := scatter_S10000x256_S400000x1_S400000x256_1_0_0_1_wf
def scatter_S10000_S400000x1_S400000_n_0_0_1 : ScatterDims S10000 S400000x1 S400000 where
  updateWindowDims := []
  insertedWindowDims := [0]
  scatterDimsToOperandDims := [0]
  indexVectorDim := 1
  wf := scatter_S10000_S400000x1_S400000_n_0_0_1_wf
def gather_S10000x256_S400000x1_S400000x256_1_0_n_n_0_1_1256 : GatherDims S10000x256 S400000x1 S400000x256 where
  offsetDims := [1]
  collapsedSliceDims := [0]
  operandBatchingDims := []
  startIndicesBatchingDims := []
  startIndexMap := [0]
  indexVectorDim := 1
  sliceSizes := ![1, 256]
  wf := gather_S10000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  What the program computes, entry by entry, over the extended reals.

  A vertex row x (256 features) goes through two affine layers, each followed by max(., 0):
    hidden k = max (sum_j x j * W1 (j, k) + b1 k) 0            (512 hidden units)
    mlp c    = max (sum_k hidden k * W2 (k, c) + b2 c) 0        (256 features)
  The rows of mlp are then averaged over hyperedges and back over vertices by a chain of gathers, scatter-adds and
  divisions that both programs apply verbatim; that chain is carried as one opaque function and never opened here.
  Given the averaged row mi of the same vertex, the last stage is
    act c = max ((sum_k x k * Wu (k, c) + bu c) + mi c) 0
    out c = (act c - M) - log (sum_k exp (act k - M)),   M = max (-inf) (the maximum of act over the row, folded from -inf),
  a log-softmax along the row. Every entry of the result depends on ONE row of x and of the averaged array and on the
  whole of the weights, so a tile of consecutive rows of the result is the same function of the same rows of the
  operands: this is what lets a row-tiled computation be compared with an untiled one.
-/
import Idealize.ShloMosaic.Lib.ValueIdx
import Idealize.ShloMosaic.PureOps.Ideal
import Idealize.ShloMosaic.PureOps.Ideal.Laws

noncomputable section

namespace Cert.Spec

open Idealize.ShloMosaic Idealize.ShloMosaic.ValueIdx

/-- The float word of zero, read at the extended reals (kept as a word: both programs spell the same word). -/
abbrev zeroW : EReal := Ideal.ofBits .f32 0x00000000#32
/-- The float word of minus infinity, read at the extended reals. -/
abbrev ninfW : EReal := Ideal.ofBits .f32 0xFF800000#32

/-- Hidden unit k of the first layer on the row xr. -/
def hiddenUnit (xr : Fin 256 → EReal) (W1 : (⟨2, ![256, 512]⟩ : Shape).Idx → EReal) (b1 : (⟨1, ![512]⟩ : Shape).Idx → EReal)
    (k : Fin 512) : EReal :=
  max ((∑ j : Fin 256, xr j * W1 (ix2 j k)) + b1 (ix1 k)) zeroW

/-- Feature c of the two-layer perceptron on the row xr. -/
def mlpEntry (xr : Fin 256 → EReal) (W1 : (⟨2, ![256, 512]⟩ : Shape).Idx → EReal) (b1 : (⟨1, ![512]⟩ : Shape).Idx → EReal)
    (W2 : (⟨2, ![512, 256]⟩ : Shape).Idx → EReal) (b2 : (⟨1, ![256]⟩ : Shape).Idx → EReal) (c : Fin 256) : EReal :=
  max ((∑ k : Fin 512, hiddenUnit xr W1 b1 k * W2 (ix2 k c)) + b2 (ix1 c)) zeroW

/-- Feature c of the update max (x Wu + bu + mi) 0 on the row xr with the averaged row mr. -/
def act (xr : Fin 256 → EReal) (Wu : (⟨2, ![256, 256]⟩ : Shape).Idx → EReal) (bu : (⟨1, ![256]⟩ : Shape).Idx → EReal)
    (mr : Fin 256 → EReal) (c : Fin 256) : EReal :=
  max (((∑ k : Fin 256, xr k * Wu (ix2 k c)) + bu (ix1 c)) + mr c) zeroW

/-- The maximum of a row, folded from minus infinity, and once more against minus infinity (as both programs take it). -/
def rowMax (f : Fin 256 → EReal) : EReal :=
  max ninfW ((Finset.univ : Finset (Fin 256)).fold max ninfW f)

/-- Entry c of the log-softmax of the row f. -/
def lsm (f : Fin 256 → EReal) (c : Fin 256) : EReal :=
  (f c - rowMax f) - Ideal.log (∑ k : Fin 256, Ideal.exp (f k - rowMax f))

/-- Entry c of the last stage on the row xr with the averaged row mr. -/
def finEntry (xr : Fin 256 → EReal) (Wu : (⟨2, ![256, 256]⟩ : Shape).Idx → EReal) (bu : (⟨1, ![256]⟩ : Shape).Idx → EReal)
    (mr : Fin 256 → EReal) (c : Fin 256) : EReal :=
  lsm (act xr Wu bu mr) c

/-- Row r of an array with 256 columns, as a function of the column. -/
def rowOf {n : ℕ} (x : (⟨2, ![n, 256]⟩ : Shape).Idx → EReal) (r : Fin n) : Fin 256 → EReal := fun j => x (ix2 r j)

/-- The perceptron on every row of an [n, 256] array. -/
def mlpArr {n : ℕ} (x : (⟨2, ![n, 256]⟩ : Shape).Idx → EReal) (W1 : (⟨2, ![256, 512]⟩ : Shape).Idx → EReal)
    (b1 : (⟨1, ![512]⟩ : Shape).Idx → EReal) (W2 : (⟨2, ![512, 256]⟩ : Shape).Idx → EReal)
    (b2 : (⟨1, ![256]⟩ : Shape).Idx → EReal) : (⟨2, ![n, 256]⟩ : Shape).Idx → EReal :=
  fun i => mlpEntry (rowOf x ⟨(i 0).val, (i 0).isLt⟩) W1 b1 W2 b2 ⟨(i 1).val, (i 1).isLt⟩

/-- The last stage on every row of an [n, 256] array x and the averaged array mi. -/
def finArr {n : ℕ} (x : (⟨2, ![n, 256]⟩ : Shape).Idx → EReal) (Wu : (⟨2, ![256, 256]⟩ : Shape).Idx → EReal)
    (bu : (⟨1, ![256]⟩ : Shape).Idx → EReal) (mi : (⟨2, ![n, 256]⟩ : Shape).Idx → EReal) :
    (⟨2, ![n, 256]⟩ : Shape).Idx → EReal :=
  fun i => finEntry (rowOf x ⟨(i 0).val, (i 0).isLt⟩) Wu bu (rowOf mi ⟨(i 0).val, (i 0).isLt⟩) ⟨(i 1).val, (i 1).isLt⟩

theorem mlpArr_ix2 {n : ℕ} (x : (⟨2, ![n, 256]⟩ : Shape).Idx → EReal) (W1 : (⟨2, ![256, 512]⟩ : Shape).Idx → EReal)
    (b1 : (⟨1, ![512]⟩ : Shape).Idx → EReal) (W2 : (⟨2, ![512, 256]⟩ : Shape).Idx → EReal)
    (b2 : (⟨1, ![256]⟩ : Shape).Idx → EReal) (r : Fin n) (c : Fin 256) :
    mlpArr x W1 b1 W2 b2 (ix2 r c) = mlpEntry (rowOf x r) W1 b1 W2 b2 c := rfl

theorem finArr_ix2 {n : ℕ} (x : (⟨2, ![n, 256]⟩ : Shape).Idx → EReal) (Wu : (⟨2, ![256, 256]⟩ : Shape).Idx → EReal)
    (bu : (⟨1, ![256]⟩ : Shape).Idx → EReal) (mi : (⟨2, ![n, 256]⟩ : Shape).Idx → EReal) (r : Fin n) (c : Fin 256) :
    finArr x Wu bu mi (ix2 r c) = finEntry (rowOf x r) Wu bu (rowOf mi r) c := rfl

end Cert.Spec

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.Tile0.lean ====
/-
  The first kernel's tile: one block of 2000 consecutive rows of x goes through the two-layer perceptron.

  The bias vector of a layer is laid out as one row and spread down the rows of the tile, so at entry (p, c) it
  contributes its entry c. Each matrix product accumulates into zero, so its entry (p, c) is the plain sum over the
  contracted coordinate. Narrowing a float to a shorter format is the identity over the extended reals. Together:
  entry (p, c) of the tile is the perceptron of row p of the block, feature c.
-/
import proofs.«108696_j84378927497724_1_alg».proof.Proof.Gen.KernelIdeal.Skeleton
import proofs.«108696_j84378927497724_1_alg».proof.Proof.Spec
import proofs.«108696_j84378927497724_1_alg».proof.Proof.LibPlainDot
import proofs.«108696_j84378927497724_1_alg».proof.Proof.LibLayout
import Idealize.ShloMosaic.Lib.ValueLayout

noncomputable section

namespace Cert.Layout

open Idealize.ShloMosaic Idealize.ShloMosaic.ValueIdx

variable {α : Type}

/-- A vector made one row and spread down the rows reads, at (p, c), its entry c. -/
theorem rowSpread_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A vector made one column and spread along the rows reads, at (p, c), its entry p. -/
theorem colSpread_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) :=
  (Cert.LibLayout.broadcastTo_a1_ab_apply _ h2 p c).trans (Cert.LibLayout.shapeCast_a_a1_apply v h1 p 0)

end Cert.Layout

namespace Cert.KernelIdeal.Tile

open Idealize.ShloMosaic Idealize.ShloMosaic.ValueIdx Cert.KernelIdeal Cert.KernelIdeal.Gen Cert.Spec

/-- Entry (p, k) of the first layer on the tile: the hidden unit k of row p. -/
theorem hidden_tile (x0 : Vec Ideal S2000x256 .f32) (w1 : Vec Ideal S256x512 .f32) (b1 : Vec Ideal S512 .f32)
    (p : Fin 2000) (k : Fin 512) :
    (maximumf (addf (matmul dot_S2000x256_S256x512_S2000x512_1_0_0_1_n_n none (truncf .bf16 x0 bitsLt_bf16_f32)
          (truncf .bf16 w1 bitsLt_bf16_f32) (constant S2000x512 .f32 0x00000000#32))
        (broadcastTo S2000x512 (shapeCast S1x512 b1 shapeCasts_S512_S1x512) broadcasts_S1x512_S2000x512))
      (broadcast S2000x512 (Scalar.ofBits .f32 0x00000000#32)) : FVec Ideal S2000x512 .f32) (ix2 p k)
      = hiddenUnit (rowOf x0 p) w1 b1 k := by
  unfold hiddenUnit
  refine congrArg₂ max (congrArg₂ (· + ·) ?_ (Cert.Layout.rowSpread_apply b1 _ _ p k)) rfl
  exact Cert.Sage.matmul_plain_zero_apply (M := 2000) (K := 256) (N := 512) none _ _ p k

/-- Entry (p, c) of what the first kernel stores: the perceptron of row p of the block, feature c. -/
theorem mlp_tile (x0 : Vec Ideal S2000x256 .f32) (w1 : Vec Ideal S256x512 .f32) (b1 : Vec Ideal S512 .f32)
    (w2 : Vec Ideal S512x256 .f32) (b2 : Vec Ideal S256 .f32) (p : Fin 2000) (c : Fin 256) :
    k0_pay1 (F := Ideal) x0 w1 b1 w2 b2 (ix2 p c) = mlpEntry (rowOf x0 p) w1 b1 w2 b2 c := by
  unfold k0_pay1 mlpEntry
  refine congrArg₂ max (congrArg₂ (· + ·) ?_ (Cert.Layout.rowSpread_apply b2 _ _ p c)) rfl
  refine (Cert.Sage.matmul_plain_zero_apply (M := 2000) (K := 512) (N := 256) none _ _ p c).trans ?_
  exact Finset.sum_congr rfl fun k _ => congrArg (· * w2 (ix2 k c)) (hidden_tile x0 w1 b1 p k)

end Cert.KernelIdeal.Tile

end
-- ==== Proof.Blocks0.lean ====
/-
  From the first kernel's tiles to its whole result array.

  The grid has 25 points; point t takes rows 2000 t .. 2000 t + 1999 of x (the weights and biases whole) and writes
  rows 2000 t .. 2000 t + 1999 of the result. Since an entry of the perceptron depends on one row of x only, the tile
  point t writes is the same rows of the perceptron of the whole array; the 25 tiles cover the 50000 rows, so the
  array ends holding the perceptron of every row.
-/
import proofs.«108696_j84378927497724_1_alg».proof.Proof.Gen.KernelIdeal.Frame
import proofs.«108696_j84378927497724_1_alg».proof.Proof.Spec
import proofs.«108696_j84378927497724_1_alg».proof.Proof.Tile0
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.Spec Idealize.ShloMosaic.ValueIdx

theorem hz2 : (![0, 0] : Fin 2 → Nat) = fun _ => 0 := funext fun a => by fin_cases a <;> rfl
theorem hz1 : (![0] : Fin 1 → Nat) = fun _ => 0 := funext fun a => by fin_cases a <;> rfl

/-- One entry of a tile against the whole array: if the block x0 holds rows 2000 T .. of X, then entry y of the tile is
    the perceptron of X at the array index i with the same column and row 2000 T + (row of y). -/
theorem mlp_block_entry (X : (⟨2, ![50000, 256]⟩ : Shape).Idx → EReal) (W1 : (⟨2, ![256, 512]⟩ : Shape).Idx → EReal)
    (b1 : (⟨1, ![512]⟩ : Shape).Idx → EReal) (W2 : (⟨2, ![512, 256]⟩ : Shape).Idx → EReal)
    (b2 : (⟨1, ![256]⟩ : Shape).Idx → EReal) (x0 : Vec Ideal S2000x256 .f32) (T : ℕ)
    (hx : ∀ (p : Fin 2000) (q : Fin 256) (r : Fin 50000), r.val = 2000 * T + p.val → x0 (ix2 p q) = X (ix2 r q))
    (y : S2000x256.Idx) (i : (⟨2, ![50000, 256]⟩ : Shape).Idx)
    (h0 : (i 0).val = 2000 * T + (y 0).val) (h1 : (i 1).val = (y 1).val) :
    k0_pay1 (F := Ideal) x0 W1 b1 W2 b2 y = mlpArr X W1 b1 W2 b2 i := by
  obtain ⟨p, q, rfl⟩ : ∃ (p : Fin 2000) (q : Fin 256), y = ix2 p q := ⟨y 0, y 1, eq_ix2 y⟩
  obtain ⟨r, c, rfl⟩ : ∃ (r : Fin 50000) (c : Fin 256), i = ix2 r c := ⟨i 0, i 1, eq_ix2 i⟩
  have hc : c = q := Fin.ext h1
  subst hc
  rw [Cert.KernelIdeal.Tile.mlp_tile, mlpArr_ix2]
  exact congrArg (fun f => mlpEntry f W1 b1 W2 b2 c) (funext fun j => hx p j r h0)

section Region
variable (V : (c : Dev nD) → (b : Ref sig .tc) → Buf (Elt Ideal) ((c : Thread nD τ).loc b))

/-- The printed index maps over the grid: the row-tiled windows sit at block t, the whole-array windows at block 0. -/
theorem idx0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- A whole-array window's block is the array. -/
theorem whole0_1 (c : Dev nD) (t : Fin cfg0.N) : (iblk0 V c 1 t : Vec Ideal S256x512 .f32) = V c main_arg3 := by
  obtain ⟨-, -, -, -, e0, e1, -⟩ := idx0 t
  funext y
  unfold iblk0
  rw [View.read_apply]
  show V c main_arg3 _ = V c main_arg3 y
  refine congrArg (V c main_arg3) (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega

theorem whole0_2 (c : Dev nD) (t : Fin cfg0.N) : (iblk0 V c 2 t : Vec Ideal S512 .f32) = V c main_arg4 := by
  obtain ⟨-, -, -, -, -, -, e0, -⟩ := idx0 t
  funext y
  unfold iblk0
  rw [View.read_apply]
  show V c main_arg4 _ = V c main_arg4 y
  refine congrArg (V c main_arg4) (funext fun a => Fin.ext ?_)
  match a with
  | ⟨0, _⟩ => show win0_2.index t (0 : Fin 1) * 512 + 1 * (y 0).val = (y 0).val; omega

theorem whole0_3 (c : Dev nD) (t : Fin cfg0.N) : (iblk0 V c 3 t : Vec Ideal S512x256 .f32) = V c main_arg5 := by
  obtain ⟨-, -, -, -, -, -, -, e0, e1, -⟩ := idx0 t
  funext y
  unfold iblk0
  rw [View.read_apply]
  show V c main_arg5 _ = V c main_arg5 y
  refine congrArg (V c main_arg5) (funext fun a => Fin.ext ?_)
  match a with
  | ⟨0, _⟩ => show win0_3.index t (0 : Fin 2) * 512 + 1 * (y 0).val = (y 0).val; omega
  | ⟨1, _⟩ => show win0_3.index t (1 : Fin 2) * 256 + 1 * (y 1).val = (y 1).val; omega

theorem whole0_4 (c : Dev nD) (t : Fin cfg0.N) : (iblk0 V c 4 t : Vec Ideal S256 .f32) = V c main_arg6 := by
  obtain ⟨-, -, -, -, -, -, -, -, -, e0⟩ := idx0 t
  funext y
  unfold iblk0
  rw [View.read_apply]
  show V c main_arg6 _ = V c main_arg6 y
  refine congrArg (V c main_arg6) (funext fun a => Fin.ext ?_)
  match a with
  | ⟨0, _⟩ => show win0_4.index t (0 : Fin 1) * 256 + 1 * (y 0).val = (y 0).val; omega

/-- The block of x at point t holds rows 2000 t .. of x. -/
theorem rows0_0 (c : Dev nD) (t : Fin cfg0.N) (p : Fin 2000) (q : Fin 256) (r : Fin 50000) (hr : r.val = 2000 * t.val + p.val) :
    (iblk0 V c 0 t : Vec Ideal S2000x256 .f32) (ix2 p q) = (V c main_arg0 : (⟨2, ![50000, 256]⟩ : Shape).Idx → EReal) (ix2 r q) := by
  obtain ⟨e0, e1, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 256 + 1 * q.val = q.val; omega

/-- What point t writes back is block t of the perceptron of the whole arrays, as the region finds them. -/
theorem flushed0 (c : Dev nD) (t : Fin cfg0.N) :
    (dat0 V c).flushed 5 t = ((cfg0.win 5).blk t).view.read (Elt Ideal)
      (mlpArr (V c main_arg0) (V c main_arg3) (V c main_arg4) (V c main_arg5) (V c main_arg6)) := by
  show (cfg0.win 5).cut (grid0.coords t) ((dat0 V c).after 5 t) = _
  rw [after0_5]
  unfold out0_5
  rw [View.canon_unit_zero hz2]
  simp only [View.ld_unit_zero (S := S2000x256) hz2, View.ld_unit_zero (S := S256x512) hz2, View.ld_unit_zero (S := S512) hz1,
    View.ld_unit_zero (S := S512x256) hz2, View.ld_unit_zero (S := S256) hz1]
  rw [whole0_1 V c t, whole0_2 V c t, whole0_3 V c t, whole0_4 V c t]
  obtain ⟨-, -, e0, e1, -⟩ := idx0 t
  funext j
  rw [View.read_apply]
  refine mlp_block_entry (V c main_arg0) (V c main_arg3) (V c main_arg4) (V c main_arg5) (V c main_arg6) (iblk0 V c 0 t) t.val
    (rows0_0 V c t) _ _ ?_ ?_
  · show win0_5.index t (0 : Fin 2) * 2000 + 1 * (j 0).val = 2000 * t.val + (j 0).val; omega
  · show win0_5.index t (1 : Fin 2) * 256 + 1 * (j 1).val = (j 1).val; omega

/-- An index of the array is in point t's block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v0).slice (win0_5.rect t)).set ↔ _
  rw [View.set_slice_whole, Rect.mem_set_unit]
  exact Iff.rfl

/-- The first kernel's result array after the region: the perceptron of every row. -/
theorem final0 (c : Dev nD) :
    (dat0 V c).arrAt 5 cfg0.N = mlpArr (V c main_arg0) (V c main_arg3) (V c main_arg4) (V c main_arg5) (V c main_arg6) :=
  (dat0 V c).arrAt_eq_of_cover 5 _ (fun t _ => flushed0 V c t) fun i => by
    have hi0 : (i 0).val < 50000 := (i 0).isLt
    have hi1 : (i 1).val < 256 := (i 1).isLt
    have hN : cfg0.N = 25 := N_0
    refine ⟨⟨(i 0).val / 2000, by rw [hN]; omega⟩, flush0_5 _, ?_⟩
    rw [mem_blk0]
    obtain ⟨-, -, e0, e1, -⟩ := idx0 ⟨(i 0).val / 2000, by rw [hN]; omega⟩
    intro a
    match a with
    | ⟨0, _⟩ => show win0_5.index _ (0 : Fin 2) * 2000 ≤ (i 0).val ∧ (i 0).val < win0_5.index _ (0 : Fin 2) * 2000 + 2000
                rw [e0]; show (i 0).val / 2000 * 2000 ≤ (i 0).val ∧ (i 0).val < (i 0).val / 2000 * 2000 + 2000; omega
    | ⟨1, _⟩ => show win0_5.index _ (1 : Fin 2) * 256 ≤ (i 1).val ∧ (i 1).val < win0_5.index _ (1 : Fin 2) * 256 + 256
                rw [e1]; omega

end Region

end Cert.KernelIdeal.Blocks

end
-- ==== Proof.Tile1.lean ====
/-
  The second kernel's tile: a block of 2000 consecutive rows of x and of the averaged array goes through the update
  max (x Wu + bu + mi) 0 and a log-softmax along each row.

  The row maximum is the fold of max from minus infinity over the 256 coordinates of the row, taken once more against
  minus infinity; the row sum of the exponentials is the plain sum over the same coordinates. Both statistics are
  vectors over the rows, made columns and spread along the rows, so entry (p, c) reads the statistic of row p.
-/
import proofs.«108696_j84378927497724_1_alg».proof.Proof.Gen.KernelIdeal.Skeleton
import proofs.«108696_j84378927497724_1_alg».proof.Proof.Spec
import proofs.«108696_j84378927497724_1_alg».proof.Proof.LibPlainDot
import proofs.«108696_j84378927497724_1_alg».proof.Proof.LibLayout
import proofs.«108696_j84378927497724_1_alg».proof.Proof.Tile0
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Gen Cert.Spec

/-- The update on the tile, as the kernel spells it. -/
def actVec (x0 : Vec Ideal S2000x256 .f32) (wu : Vec Ideal S256x256 .f32) (bu : Vec Ideal S256 .f32)
    (mi0 : Vec Ideal S2000x256 .f32) : FVec Ideal S2000x256 .f32 :=
  maximumf (addf (addf (matmul dot_S2000x256_S256x256_S2000x256_1_0_0_1_n_n none (truncf .bf16 x0 bitsLt_bf16_f32)
        (truncf .bf16 wu bitsLt_bf16_f32) (constant S2000x256 .f32 0x00000000#32))
      (broadcastTo S2000x256 (shapeCast S1x256 bu shapeCasts_S256_S1x256) broadcasts_S1x256_S2000x256))
    (shapeCast S2000x256 mi0 shapeCasts_S2000x256_S2000x256)) (broadcast S2000x256 (Scalar.ofBits .f32 0x00000000#32))

/-- The row maxima of a tile, as the kernel spells them. -/
def rowMaxVec (A : FVec Ideal S2000x256 .f32) : FVec Ideal S2000 .f32 :=
  maximumf (broadcast S2000 (Scalar.ofBits .f32 0xFF800000#32))
    (multiReduction .maximumf [1] S2000 A 0xFF800000#32 reduces_S2000x256_S2000 (.inl rfl) rfl)

/-- A tile minus its row maxima. -/
def shiftVec (A : FVec Ideal S2000x256 .f32) : FVec Ideal S2000x256 .f32 :=
  subf A (broadcastTo S2000x256 (shapeCast S2000x1 (rowMaxVec A) shapeCasts_S2000_S2000x1) broadcasts_S2000x1_S2000x256)

/-- The log-softmax of a tile along its rows, as the kernel spells it. -/
def lsmVec (A : FVec Ideal S2000x256 .f32) : FVec Ideal S2000x256 .f32 :=
  subf (shiftVec A) (broadcastTo S2000x256 (log (shapeCast S2000x1
    (multiReduction .add [1] S2000 (exp (shiftVec A)) 0x00000000#32 reduces_S2000x256_S2000 (.inl rfl) rfl)
    shapeCasts_S2000_S2000x1)) broadcasts_S2000x1_S2000x256)

/-- What the second kernel stores is the log-softmax of the update. -/
theorem pay_eq (x0 : Vec Ideal S2000x256 .f32) (wu : Vec Ideal S256x256 .f32) (bu : Vec Ideal S256 .f32)
    (mi0 : Vec Ideal S2000x256 .f32) : k1_pay1 (F := Ideal) x0 wu bu mi0 = lsmVec (actVec x0 wu bu mi0) := rfl

/-- Entry (p, k) of the update on the tile. -/
theorem act_tile (x0 : Vec Ideal S2000x256 .f32) (wu : Vec Ideal S256x256 .f32) (bu : Vec Ideal S256 .f32)
    (mi0 : Vec Ideal S2000x256 .f32) (p : Fin 2000) (k : Fin 256) :
    actVec x0 wu bu mi0 (ix2 p k) = act (rowOf x0 p) wu bu (rowOf mi0 p) k := by
  unfold actVec act
  refine congrArg₂ max (congrArg₂ (· + ·) (congrArg₂ (· + ·) ?_ (Cert.Layout.rowSpread_apply bu _ _ p k)) ?_) rfl
  · exact Cert.Sage.matmul_plain_zero_apply (M := 2000) (K := 256) (N := 256) none _ _ p k
  · rw [shapeCast_self]; rfl

/-- The row of a tile that a reduced index (p) and a coordinate k of the reduced axis name is (p, k). -/
theorem lift_row (p : Fin 2000) (k : Fin 256) : reduces_S2000x256_S2000.lift (ix1 p) k = ix2 p k := by
  funext a
  refine Fin.ext ?_
  match a with
  | ⟨0, _⟩ => rfl
  | ⟨1, _⟩ => rfl

/-- Entry p of the row maxima: the maximum of row p. -/
theorem rowMax_tile (A : FVec Ideal S2000x256 .f32) (p : Fin 2000) :
    rowMaxVec A (ix1 p) = rowMax (fun k => A (ix2 p k)) := by
  unfold rowMaxVec rowMax
  refine congrArg₂ max rfl ?_
  refine (Ideal.multiReduction_maximumf_single A 0xFF800000#32 reduces_S2000x256_S2000 (.inl rfl) rfl (ix1 p)).trans ?_
  refine congrArg (fun f : Fin 256 → EReal => (Finset.univ : Finset (Fin 256)).fold max ninfW f) ?_
  funext k
  exact congrArg A (lift_row p k)

/-- Entry (p, k) of a tile minus its row maxima. -/
theorem shift_tile (A : FVec Ideal S2000x256 .f32) (p : Fin 2000) (k : Fin 256) :
    shiftVec A (ix2 p k) = A (ix2 p k) - rowMax (fun k => A (ix2 p k)) := by
  unfold shiftVec
  refine congrArg₂ (· - ·) rfl ?_
  exact (Cert.Layout.colSpread_apply (rowMaxVec A) _ _ p k).trans (rowMax_tile A p)

/-- Entry (p, c) of the log-softmax of a tile: the log-softmax of row p at c. -/
theorem lsm_tile (A : FVec Ideal S2000x256 .f32) (p : Fin 2000) (c : Fin 256) :
    lsmVec A (ix2 p c) = lsm (fun k => A (ix2 p k)) c := by
  unfold lsmVec lsm
  refine congrArg₂ (· - ·) (shift_tile A p c) ?_
  refine (Cert.LibLayout.broadcastTo_a1_ab_apply _ broadcasts_S2000x1_S2000x256 p c).trans ?_
  refine congrArg Ideal.log ?_
  refine (Cert.LibLayout.shapeCast_a_a1_apply _ shapeCasts_S2000_S2000x1 p 0).trans ?_
  refine (Ideal.multiReduction_add_single (exp (shiftVec A)) 0x00000000#32 reduces_S2000x256_S2000 (.inl rfl) rfl (ix1 p)).trans ?_
  refine Finset.sum_congr rfl fun k _ => ?_
  refine congrArg Ideal.exp ?_
  exact (congrArg (shiftVec A) (lift_row p k)).trans (shift_tile A p k)

/-- Entry (p, c) of what the second kernel stores: the last stage on row p of the blocks, feature c. -/
theorem fin_tile (x0 : Vec Ideal S2000x256 .f32) (wu : Vec Ideal S256x256 .f32) (bu : Vec Ideal S256 .f32)
    (mi0 : Vec Ideal S2000x256 .f32) (p : Fin 2000) (c : Fin 256) :
    k1_pay1 (F := Ideal) x0 wu bu mi0 (ix2 p c) = finEntry (rowOf x0 p) wu bu (rowOf mi0 p) c := by
  rw [pay_eq, lsm_tile]
  unfold finEntry
  exact congrArg (fun f => lsm f c) (funext fun k => act_tile x0 wu bu mi0 p k)

end Cert.KernelIdeal.Tile

end
-- ==== Proof.Blocks1.lean ====
/-
  From the second kernel's tiles to the whole result array.

  Point t of the 25 takes rows 2000 t .. 2000 t + 1999 of x and of the averaged array (the weight and bias whole) and
  writes the same rows of the result. An entry of the last stage depends on one row of x and one row of the averaged
  array only, so the tile is the same rows of the last stage of the whole arrays, and the 25 tiles cover the result.
-/
import proofs.«108696_j84378927497724_1_alg».proof.Proof.Gen.KernelIdeal.Frame
import proofs.«108696_j84378927497724_1_alg».proof.Proof.Spec
import proofs.«108696_j84378927497724_1_alg».proof.Proof.Tile1
import proofs.«108696_j84378927497724_1_alg».proof.Proof.Blocks0
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.Spec Idealize.ShloMosaic.ValueIdx

/-- One entry of a tile against the whole arrays: if the blocks x0 and mi0 hold rows 2000 T .. of X and of MI, then
    entry y of the tile is the last stage of X and MI at the array index i with the same column and row
    2000 T + (row of y). -/
theorem fin_block_entry (X : (⟨2, ![50000, 256]⟩ : Shape).Idx → EReal) (Wu : (⟨2, ![256, 256]⟩ : Shape).Idx → EReal)
    (bu : (⟨1, ![256]⟩ : Shape).Idx → EReal) (MI : (⟨2, ![50000, 256]⟩ : Shape).Idx → EReal)
    (x0 mi0 : Vec Ideal S2000x256 .f32) (T : ℕ)
    (hx : ∀ (p : Fin 2000) (q : Fin 256) (r : Fin 50000), r.val = 2000 * T + p.val → x0 (ix2 p q) = X (ix2 r q))
    (hm : ∀ (p : Fin 2000) (q : Fin 256) (r : Fin 50000), r.val = 2000 * T + p.val → mi0 (ix2 p q) = MI (ix2 r q))
    (y : S2000x256.Idx) (i : (⟨2, ![50000, 256]⟩ : Shape).Idx)
    (h0 : (i 0).val = 2000 * T + (y 0).val) (h1 : (i 1).val = (y 1).val) :
    k1_pay1 (F := Ideal) x0 Wu bu mi0 y = finArr X Wu bu MI i := by
  obtain ⟨p, q, rfl⟩ : ∃ (p : Fin 2000) (q : Fin 256), y = ix2 p q := ⟨y 0, y 1, eq_ix2 y⟩
  obtain ⟨r, c, rfl⟩ : ∃ (r : Fin 50000) (c : Fin 256), i = ix2 r c := ⟨i 0, i 1, eq_ix2 i⟩
  have hc : c = q := Fin.ext h1
  subst hc
  rw [Cert.KernelIdeal.Tile.fin_tile, finArr_ix2]
  have e1 : rowOf x0 p = rowOf X r := funext fun j => hx p j r h0
  have e2 : rowOf mi0 p = rowOf MI r := funext fun j => hm p j r h0
  rw [e1, e2]

section Region
variable (V : (c : Dev nD) → (b : Ref sig .tc) → Buf (Elt Ideal) ((c : Thread nD τ).loc b))

/-- The printed index maps over the grid: the row-tiled windows sit at block t, the whole-array windows at block 0. -/
theorem idx1 : ∀ t : Fin cfg1.N, win1_0.index t (0 : Fin 2) = t.val ∧ win1_0.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_1.index t (0 : Fin 2) = 0 ∧ win1_1.index t (1 : Fin 2) = 0
    ∧ win1_2.index t (0 : Fin 1) = 0 :=
  (by decide +kernel : ∀ t : Fin grid1.N, _)

theorem whole1_1 (c : Dev nD) (t : Fin cfg1.N) : (iblk1 V c 1 t : Vec Ideal S256x256 .f32) = V c main_arg7 := by
  obtain ⟨-, -, -, -, -, -, e0, e1, -⟩ := idx1 t
  funext y
  unfold iblk1
  rw [View.read_apply]
  show V c main_arg7 _ = V c main_arg7 y
  refine congrArg (V c main_arg7) (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega

theorem whole1_2 (c : Dev nD) (t : Fin cfg1.N) : (iblk1 V c 2 t : Vec Ideal S256 .f32) = V c main_arg8 := by
  obtain ⟨-, -, -, -, -, -, -, -, e0⟩ := idx1 t
  funext y
  unfold iblk1
  rw [View.read_apply]
  show V c main_arg8 _ = V c main_arg8 y
  refine congrArg (V c main_arg8) (funext fun a => Fin.ext ?_)
  match a with
  | ⟨0, _⟩ => show win1_2.index t (0 : Fin 1) * 256 + 1 * (y 0).val = (y 0).val; omega

/-- The block of x at point t holds rows 2000 t .. of x. -/
theorem rows1_0 (c : Dev nD) (t : Fin cfg1.N) (p : Fin 2000) (q : Fin 256) (r : Fin 50000) (hr : r.val = 2000 * t.val + p.val) :
    (iblk1 V c 0 t : Vec Ideal S2000x256 .f32) (ix2 p q) = (V c main_arg0 : (⟨2, ![50000, 256]⟩ : Shape).Idx → EReal) (ix2 r q) := by
  obtain ⟨e0, e1, -⟩ := idx1 t
  unfold iblk1
  rw [View.read_apply]
  show V c main_arg0 _ = V c main_arg0 _
  refine congrArg (V c main_arg0) (funext fun a => Fin.ext ?_)
  match a with
  | ⟨0, _⟩ => show win1_0.index t (0 : Fin 2) * 2000 + 1 * p.val = r.val; omega
  | ⟨1, _⟩ => show win1_0.index t (1 : Fin 2) * 256 + 1 * q.val = q.val; omega

/-- The block of the averaged array at point t holds its rows 2000 t .. . -/
theorem rows1_3 (c : Dev nD) (t : Fin cfg1.N) (p : Fin 2000) (q : Fin 256) (r : Fin 50000) (hr : r.val = 2000 * t.val + p.val) :
    (iblk1 V c 3 t : Vec Ideal S2000x256 .f32) (ix2 p q) = (V c main_v38 : (⟨2, ![50000, 256]⟩ : Shape).Idx → EReal) (ix2 r q) := by
  obtain ⟨-, -, e0, e1, -⟩ := idx1 t
  unfold iblk1
  rw [View.read_apply]
  show V c main_v38 _ = V c main_v38 _
  refine congrArg (V c main_v38) (funext fun a => Fin.ext ?_)
  match a with
  | ⟨0, _⟩ => show win1_3.index t (0 : Fin 2) * 2000 + 1 * p.val = r.val; omega
  | ⟨1, _⟩ => show win1_3.index t (1 : Fin 2) * 256 + 1 * q.val = q.val; omega

/-- What point t writes back is block t of the last stage of the whole arrays, as the region finds them. -/
theorem flushed1 (c : Dev nD) (t : Fin cfg1.N) :
    (dat1 V c).flushed 4 t = ((cfg1.win 4).blk t).view.read (Elt Ideal)
      (finArr (V c main_arg0) (V c main_arg7) (V c main_arg8) (V c main_v38)) := by
  show (cfg1.win 4).cut (grid1.coords t) ((dat1 V c).after 4 t) = _
  rw [after1_4]
  unfold out1_4
  rw [View.canon_unit_zero hz2]
  simp only [View.ld_unit_zero (S := S2000x256) hz2, View.ld_unit_zero (S := S256x256) hz2, View.ld_unit_zero (S := S256) hz1]
  rw [whole1_1 V c t, whole1_2 V c t]
  obtain ⟨-, -, -, -, e0, e1, -⟩ := idx1 t
  funext j
  rw [View.read_apply]
  refine fin_block_entry (V c main_arg0) (V c main_arg7) (V c main_arg8) (V c main_v38) (iblk1 V c 0 t) (iblk1 V c 3 t) t.val
    (rows1_0 V c t) (rows1_3 V c t) _ _ ?_ ?_
  · show win1_4.index t (0 : Fin 2) * 2000 + 1 * (j 0).val = 2000 * t.val + (j 0).val; omega
  · show win1_4.index t (1 : Fin 2) * 256 + 1 * (j 1).val = (j 1).val; omega

/-- An index of the array is in point t's block iff each coordinate is in the block's range on its axis. -/
theorem mem_blk1 (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v39).slice (win1_4.rect t)).set ↔ _
  rw [View.set_slice_whole, Rect.mem_set_unit]
  exact Iff.rfl

/-- The second kernel's result array after the region: the last stage of every row. -/
theorem final1 (c : Dev nD) :
    (dat1 V c).arrAt 4 cfg1.N = finArr (V c main_arg0) (V c main_arg7) (V c main_arg8) (V c main_v38) :=
  (dat1 V c).arrAt_eq_of_cover 4 _ (fun t _ => flushed1 V c t) fun i => by
    have hi0 : (i 0).val < 50000 := (i 0).isLt
    have hi1 : (i 1).val < 256 := (i 1).isLt
    have hN : cfg1.N = 25 := N_1
    refine ⟨⟨(i 0).val / 2000, by rw [hN]; omega⟩, flush1_4 _, ?_⟩
    rw [mem_blk1]
    obtain ⟨-, -, -, -, e0, e1, -⟩ := idx1 ⟨(i 0).val / 2000, by rw [hN]; omega⟩
    intro a
    match a with
    | ⟨0, _⟩ => show win1_4.index _ (0 : Fin 2) * 2000 ≤ (i 0).val ∧ (i 0).val < win1_4.index _ (0 : Fin 2) * 2000 + 2000
                rw [e0]; show (i 0).val / 2000 * 2000 ≤ (i 0).val ∧ (i 0).val < (i 0).val / 2000 * 2000 + 2000; omega
    | ⟨1, _⟩ => show win1_4.index _ (1 : Fin 2) * 256 ≤ (i 1).val ∧ (i 1).val < win1_4.index _ (1 : Fin 2) * 256 + 256
                rw [e1]; omega

end Region

end Cert.KernelIdeal.Blocks

end
-- ==== Proof.Mid.lean ====
/-
  The averaging between the two kernels, as ONE function of the perceptron's array and the two index arrays.

  Each vertex row is gathered along the incidence list, summed into its hyperedge and divided by the hyperedge's count
  (at least one); each hyperedge row is gathered back along the list, summed into its vertex and divided by the
  vertex's count (at least one). Both programs apply exactly these operations, in this order, to the same index arrays;
  the comparison never looks inside: it only needs the arrays going in to be equal.
-/
import proofs.«108696_j84378927497724_1_alg».proof.KernelIdeal
import proofs.«108696_j84378927497724_1_alg».proof.Proof.Gen.KernelIdeal

noncomputable section

namespace Cert.KernelIdeal.Mid

open Cert.KernelIdeal Cert.KernelIdeal.Gen Idealize.ShloMosaic

variable {F : FTy → Type} [FloatOps F]

/-- An index array with its negative entries wrapped around an axis of extent n. -/
def wrapIdx (n : BitVec 32) (a : (⟨S400000, .i32⟩ : BufTy).Contents (Elt F)) : (⟨S400000, .i32⟩ : BufTy).Contents (Elt F) :=
  select (cmpi .slt a (broadcastInDim S400000 ![] bcast_S_S400000 (constantI S_ 32 0#32)))
    (addi a (broadcastInDim S400000 ![] bcast_S_S400000 (constantI S_ 32 n))) a

/-- The hyperedge means: vertex rows gathered along the incidence list, summed per hyperedge, divided by the counts. -/
def edgeMean (M : (⟨S50000x256, .f32⟩ : BufTy).Contents (Elt F)) (a1 a2 : (⟨S400000, .i32⟩ : BufTy).Contents (Elt F)) :
    (⟨S10000x256, .f32⟩ : BufTy).Contents (Elt F) :=
  Host.divf
    (Host.scatterAdd scatter_S10000x256_S400000x1_S400000x256_1_0_0_1
      (broadcastInDim S10000x256 ![] bcast_S_S10000x256 (constant S_ .f32 0x00000000#32))
      (broadcastInDim S400000x1 ![0] bcast_S400000_S400000x1_0 a2)
      (Host.gather gather_S50000x256_S400000x1_S400000x256_1_0_n_n_0_1_1256 M
        (broadcastInDim S400000x1 ![0] bcast_S400000_S400000x1_0 (wrapIdx 50000#32 a1))))
    (broadcastInDim S10000x256 ![0, 1] bcast_S10000x1_S10000x256_0_1
      (broadcastInDim S10000x1 ![0] bcast_S10000_S10000x1_0
        (maximumf
          (Host.scatterAdd scatter_S10000_S400000x1_S400000_n_0_0_1
            (broadcastInDim S10000 ![] bcast_S_S10000 (constant S_ .f32 0x00000000#32))
            (broadcastInDim S400000x1 ![0] bcast_S400000_S400000x1_0 a2)
            (broadcastInDim S400000 ![] bcast_S_S400000 (constant S_ .f32 0x3F800000#32)))
          (broadcastInDim S10000 ![] bcast_S_S10000 (constant S_ .f32 0x3F800000#32)))))

/-- The vertex means of the hyperedge means: the averaged array the last stage adds in. -/
def mid (M : (⟨S50000x256, .f32⟩ : BufTy).Contents (Elt F)) (a1 a2 : (⟨S400000, .i32⟩ : BufTy).Contents (Elt F)) :
    (⟨S50000x256, .f32⟩ : BufTy).Contents (Elt F) :=
  Host.divf
    (Host.scatterAdd scatter_S50000x256_S400000x1_S400000x256_1_0_0_1
      (broadcastInDim S50000x256 ![] bcast_S_S50000x256 (constant S_ .f32 0x00000000#32))
      (broadcastInDim S400000x1 ![0] bcast_S400000_S400000x1_0 a1)
      (Host.gather gather_S10000x256_S400000x1_S400000x256_1_0_n_n_0_1_1256 (edgeMean M a1 a2)
        (broadcastInDim S400000x1 ![0] bcast_S400000_S400000x1_0 (wrapIdx 10000#32 a2))))
    (broadcastInDim S50000x256 ![0, 1] bcast_S50000x1_S50000x256_0_1
      (broadcastInDim S50000x1 ![0] bcast_S50000_S50000x1_0
        (maximumf
          (Host.scatterAdd scatter_S50000_S400000x1_S400000_n_0_0_1
            (broadcastInDim S50000 ![] bcast_S_S50000 (constant S_ .f32 0x00000000#32))
            (broadcastInDim S400000x1 ![0] bcast_S400000_S400000x1_0 a1)
            (broadcastInDim S400000 ![] bcast_S_S400000 (constant S_ .f32 0x3F800000#32)))
          (broadcastInDim S50000 ![] bcast_S_S50000 (constant S_ .f32 0x3F800000#32)))))

end Cert.KernelIdeal.Mid

end
-- ==== Proof.Whole.lean ====
/-
  The whole idealized kernel program, read at its result.

  The program is three segments: the first kernel region, a stretch of host operations (the averaging), the second
  kernel region. Every weakly fair execution ends with each buffer at the contents the segments' fold leaves. Read at the
  result buffer the fold is: the second region's array of the last stage, of x, Wu, bu as launched (nothing writes them)
  and of the averaged array the host stretch leaves, which is the averaging chain applied to the first region's array
  of the perceptron of x, W1, b1, W2, b2 as launched, and to the two index arrays as launched.
-/
import proofs.«108696_j84378927497724_1_alg».proof.Proof.Gen.KernelIdeal.Frame
import proofs.«108696_j84378927497724_1_alg».proof.Proof.Spec
import proofs.«108696_j84378927497724_1_alg».proof.Proof.Blocks0
import proofs.«108696_j84378927497724_1_alg».proof.Proof.Blocks1
import proofs.«108696_j84378927497724_1_alg».proof.Proof.Mid
import Idealize.ShloMosaic.Lib.StableHlo.Run

set_option maxRecDepth 16384

noncomputable section

namespace Cert.KernelIdeal.Whole

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    what the fold of the three segments leaves there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The same run with the result buffer and the nine arguments named. -/
theorem run_named : θ_run defs (onTc (τ := τ) (main (F := F))) ⟨m, fun _ => 0, ρ⟩ (fun r => ∀ c : Dev nD,
      r.2.mem ((c.tc : Thread nD τ).loc main_v39) = W3 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v39 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c)⟩)
    (run_all m ρ)

end Cert.KernelIdeal.Whole

end
-- ==== Proof.KernelValue.lean ====
/-
  The idealized kernel program's result as one function of the launch contents.

  Read back through the three segments: the second region's array is the last stage of x, Wu, bu as launched and of the
  averaged array; the averaged array is the averaging chain of the first region's array and of the two index arrays as
  launched; the first region's array is the perceptron of x, W1, b1, W2, b2 as launched.
-/
import proofs.«108696_j84378927497724_1_alg».proof.Proof.Whole

set_option maxRecDepth 16384

noncomputable section

namespace Cert.KernelIdeal.Whole

open Cert.KernelIdeal Cert.KernelIdeal.Gen Cert.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The host stretch between the regions leaves, in the averaged array's buffer, the averaging chain of what it finds in
    the first region's result buffer and in the two index arguments. -/
theorem mid_after (U : Valuation τ sig (Elt Ideal)) :
    StableHlo.after (hostOps1 : List (HloOp τ sig (Elt Ideal))) U (Proc.devRef .tc main_v38)
      = Cert.KernelIdeal.Mid.mid (F := Ideal) (U (Proc.devRef .tc main_v0)) (U (Proc.devRef .tc main_arg1)) (U (Proc.devRef .tc main_arg2)) := by
  after_results_simp <;> rfl

/-- The first region's result buffer at its exit: the perceptron of the launch contents. -/
theorem W1_v0 (c : Dev nD) :
    W1 m ρ c (Proc.devRef .tc main_v0)
      = mlpArr (m ((c : Thread nD τ).loc main_arg0)) (m ((c : Thread nD τ).loc main_arg3)) (m ((c : Thread nD τ).loc main_arg4))
          (m ((c : Thread nD τ).loc main_arg5)) (m ((c : Thread nD τ).loc main_arg6)) :=
  (W1_arr m ρ c 5).trans (Cert.KernelIdeal.Blocks.final0 (V0 m ρ) c)

theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)

/-- The averaged array as the second region finds it. -/
theorem V2_v38 (c : Dev nD) :
    V2 m ρ c main_v38 = Cert.KernelIdeal.Mid.mid (F := Ideal)
      (mlpArr (m ((c : Thread nD τ).loc main_arg0)) (m ((c : Thread nD τ).loc main_arg3)) (m ((c : Thread nD τ).loc main_arg4))
          (m ((c : Thread nD τ).loc main_arg5)) (m ((c : Thread nD τ).loc main_arg6)))
      (m ((c : Thread nD τ).loc main_arg1)) (m ((c : Thread nD τ).loc main_arg2)) := by
  show StableHlo.after hostOps1 (W1 m ρ c) (Proc.devRef .tc main_v38) = _
  rw [mid_after, W1_v0, W1_arg1, W1_arg2]

/-- The arguments the second region reads are as launched. -/
theorem V2_arg0 (c : Dev nD) : V2 m ρ c main_arg0 = m ((c : Thread nD τ).loc main_arg0) :=
  (((W3_arr m ρ c 0).trans (((dat1 (V2 m ρ) c).arrAt_in 0 rfl _).trans (A_eq1 (V2 m ρ) c 0))).symm).trans (W3_main_arg0 m ρ c)
theorem V2_arg7 (c : Dev nD) : V2 m ρ c main_arg7 = m ((c : Thread nD τ).loc main_arg7) :=
  (((W3_arr m ρ c 1).trans (((dat1 (V2 m ρ) c).arrAt_in 1 rfl _).trans (A_eq1 (V2 m ρ) c 1))).symm).trans (W3_main_arg7 m ρ c)
theorem V2_arg8 (c : Dev nD) : V2 m ρ c main_arg8 = m ((c : Thread nD τ).loc main_arg8) :=
  (((W3_arr m ρ c 2).trans (((dat1 (V2 m ρ) c).arrAt_in 2 rfl _).trans (A_eq1 (V2 m ρ) c 2))).symm).trans (W3_main_arg8 m ρ c)

/-- The program's result as a function of its arguments. -/
def result (c : Dev nD) : Buf (Elt Ideal) ((c.tc : Thread nD τ).loc main_v39) :=
  finArr (m ((c : Thread nD τ).loc main_arg0)) (m ((c : Thread nD τ).loc main_arg7)) (m ((c : Thread nD τ).loc main_arg8))
    (Cert.KernelIdeal.Mid.mid (F := Ideal)
      (mlpArr (m ((c : Thread nD τ).loc main_arg0)) (m ((c : Thread nD τ).loc main_arg3)) (m ((c : Thread nD τ).loc main_arg4))
          (m ((c : Thread nD τ).loc main_arg5)) (m ((c : Thread nD τ).loc main_arg6)))
      (m ((c : Thread nD τ).loc main_arg1)) (m ((c : Thread nD τ).loc main_arg2)))

/-- The result buffer at the end of the fold is that function. -/
theorem W3_v39 (c : Dev nD) : W3 m ρ c (Proc.devRef .tc main_v39) = result m c := by
  refine ((W3_arr m ρ c 4).trans (Cert.KernelIdeal.Blocks.final1 (V2 m ρ) c)).trans ?_
  unfold result
  rw [V2_arg0, V2_arg7, V2_arg8, V2_v38]

/-- Every weakly fair execution of the idealized kernel program terminates with the result buffer at that function of
    the arguments and the arguments unchanged. -/
theorem run : θ_run defs (onTc (τ := τ) (main (F := Ideal))) ⟨m, fun _ => 0, ρ⟩ (fun r => ∀ c : Dev nD,
      r.2.mem ((c.tc : Thread nD τ).loc main_v39) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W3_v39 m ρ c), (h c).2⟩) (run_named m ρ)

end Cert.KernelIdeal.Whole

end
-- ==== Proof.LibAfter.lean ====
/-
  Running a list of host operations in two stretches.

  The contents every buffer holds after a list of host operations is a fold of the operations' results over the
  contents before it; the fold over a list split in two is the fold over the second part from what the first part
  leaves. So a long straight line can be read stretch by stretch, each from the contents at its start.
-/
import Idealize.ShloMosaic.Lib.StableHlo.Run

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibAfter
-- ==== Proof.RefFoldA.lean ====
/-
  The reference's first 14 operations (the two-layer perceptron), from arbitrary contents: they leave the perceptron stage in
  their result buffer and write none of the arguments the later operations read. Also: the fold over a list is the fold over
  its tail from what its first n operations leave.
-/
import proofs.«108696_j84378927497724_1_alg».proof.Proof.RefReadP
import proofs.«108696_j84378927497724_1_alg».proof.Proof.LibAfter

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The contents after a list of operations are the contents after its tail from what its first n operations leave. -/
theorem after_split (n : ℕ) (l : List (HloOp τ sig (Elt Ideal))) (V : Valuation τ sig (Elt Ideal)) :
    after l V = after (l.drop n) (after (l.take n) V) := by
  rw [← Cert.LibAfter.after_append, List.take_append_drop]

/-! ## The first stretch: the perceptron -/

set_option maxRecDepth 8192 in
theorem headA (U : Valuation τ sig (Elt Ideal)) :
    after ((ops (F := Ideal)).take 14) U (Proc.devRef .tc main_v9)
      = val_main_v9 (F := Ideal) (U (Proc.devRef .tc main_arg0)) (U (Proc.devRef .tc main_arg3)) (U (Proc.devRef .tc main_arg4))
          (U (Proc.devRef .tc main_arg5)) (U (Proc.devRef .tc main_arg6)) := by
  simp only [ops, List.take_succ_cons, List.take_zero]
  after_results_simp
  simp only [cast_eq]
  rfl

set_option maxRecDepth 8192 in
theorem keepA (U : Valuation τ sig (Elt Ideal)) :
    after ((ops (F := Ideal)).take 14) U (Proc.devRef .tc main_arg0) = U (Proc.devRef .tc main_arg0)
    ∧ after ((ops (F := Ideal)).take 14) U (Proc.devRef .tc main_arg1) = U (Proc.devRef .tc main_arg1)
    ∧ after ((ops (F := Ideal)).take 14) U (Proc.devRef .tc main_arg2) = U (Proc.devRef .tc main_arg2)
    ∧ after ((ops (F := Ideal)).take 14) U (Proc.devRef .tc main_arg7) = U (Proc.devRef .tc main_arg7)
    ∧ after ((ops (F := Ideal)).take 14) U (Proc.devRef .tc main_arg8) = U (Proc.devRef .tc main_arg8) := by
  simp only [ops, List.take_succ_cons, List.take_zero]
  refine ⟨?_, ?_, ?_, ?_, ?_⟩ <;> after_results_simp <;> rfl

end Cert.ReferenceIdeal.Fold

end
-- ==== Proof.RefFoldB.lean ====
/-
  The reference's next 50 operations (the averaging), from arbitrary contents: they leave, in their result buffer, the
  averaging stage of what they find in the perceptron's buffer and in the two index arguments, and write none of the
  arguments the last operations read.
-/
import proofs.«108696_j84378927497724_1_alg».proof.Proof.RefReadP
import proofs.«108696_j84378927497724_1_alg».proof.Proof.LibAfter

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## The second stretch: the averaging -/

set_option maxRecDepth 8192 in
theorem midB (U : Valuation τ sig (Elt Ideal)) (x0 : (⟨S50000x256, .f32⟩ : BufTy).Contents (Elt Ideal)) (x1 x2 : (⟨S400000, .i32⟩ : BufTy).Contents (Elt Ideal)) (x3 : (⟨S256x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal))
    (h9 : U (Proc.devRef .tc main_v9) = val_main_v9 (F := Ideal) x0 x3 x4 x5 x6)
    (h1 : U (Proc.devRef .tc main_arg1) = x1) (h2 : U (Proc.devRef .tc main_arg2) = x2) :
    after (((ops (F := Ideal)).drop 14).take 50) U (Proc.devRef .tc main_v47) = val_main_v47 (F := Ideal) x0 x1 x2 x3 x4 x5 x6 := by
  simp only [ops, List.drop_succ_cons, List.drop_zero, List.take_succ_cons, List.take_zero]
  after_results_simp
  rw [h9, h1, h2]
  rfl

set_option maxRecDepth 8192 in
theorem keepB (U : Valuation τ sig (Elt Ideal)) :
    after (((ops (F := Ideal)).drop 14).take 50) U (Proc.devRef .tc main_arg0) = U (Proc.devRef .tc main_arg0)
    ∧ after (((ops (F := Ideal)).drop 14).take 50) U (Proc.devRef .tc main_arg7) = U (Proc.devRef .tc main_arg7)
    ∧ after (((ops (F := Ideal)).drop 14).take 50) U (Proc.devRef .tc main_arg8) = U (Proc.devRef .tc main_arg8) := by
  simp only [ops, List.drop_succ_cons, List.drop_zero, List.take_succ_cons, List.take_zero]
  refine ⟨?_, ?_, ?_⟩ <;> after_results_simp <;> rfl

end Cert.ReferenceIdeal.Fold

end
-- ==== Proof.RefFoldC1.lean ====
/-
  The reference's operations 65 to 72 (the update max (x Wu + bu + mi) 0), from arbitrary contents: they leave the update
  stage in their result buffer.
-/
import proofs.«108696_j84378927497724_1_alg».proof.Proof.RefReadP
import proofs.«108696_j84378927497724_1_alg».proof.Proof.LibAfter

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

set_option maxRecDepth 8192 in
theorem tailC1 (U : Valuation τ sig (Elt Ideal)) (x0 : (⟨S50000x256, .f32⟩ : BufTy).Contents (Elt Ideal)) (x1 x2 : (⟨S400000, .i32⟩ : BufTy).Contents (Elt Ideal)) (x3 : (⟨S256x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))
    (h47 : U (Proc.devRef .tc main_v47) = val_main_v47 (F := Ideal) x0 x1 x2 x3 x4 x5 x6)
    (h0 : U (Proc.devRef .tc main_arg0) = x0) (h7 : U (Proc.devRef .tc main_arg7) = x7) (h8 : U (Proc.devRef .tc main_arg8) = x8) :
    after ((((ops (F := Ideal)).drop 14).drop 50).take 8) U (Proc.devRef .tc main_v53) = val_main_v53 (F := Ideal) x0 x1 x2 x3 x4 x5 x6 x7 x8 := by
  simp only [ops, List.drop_succ_cons, List.drop_zero, List.take_succ_cons, List.take_zero]
  after_results_simp
  simp only [cast_eq]
  rw [h47, h0, h7, h8]
  rfl

end Cert.ReferenceIdeal.Fold

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.RefFoldC2.lean ====
/-
  The reference's last 15 operations (the log-softmax), from arbitrary contents: they leave the final stage in the result
  buffer. Each operation inside an outlined function writes through a typed reference and the next reads back through it;
  the round trips are the identity, so what is left is the operations' composite of the update stage.
-/
import proofs.«108696_j84378927497724_1_alg».proof.Proof.RefReadP
import proofs.«108696_j84378927497724_1_alg».proof.Proof.LibAfter
import proofs.«108696_j84378927497724_1_alg».proof.Proof.LibTRef

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

set_option maxRecDepth 8192 in
theorem tailC2 (U : Valuation τ sig (Elt Ideal)) (x0 : (⟨S50000x256, .f32⟩ : BufTy).Contents (Elt Ideal)) (x1 x2 : (⟨S400000, .i32⟩ : BufTy).Contents (Elt Ideal)) (x3 : (⟨S256x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))
    (h53 : U (Proc.devRef .tc main_v53) = val_main_v53 (F := Ideal) x0 x1 x2 x3 x4 x5 x6 x7 x8) :
    after ((((ops (F := Ideal)).drop 14).drop 50).drop 8) U (Proc.devRef .tc main_v54) = val_main_v54 (F := Ideal) x0 x1 x2 x3 x4 x5 x6 x7 x8 := by
  have e53 : (TRef.of (T := ⟨S50000x256, .f32⟩) main_v53 : TRef sig _).ofBuf (Val := Elt Ideal) (U (Proc.devRef .tc main_v53))
      = val_main_v53 (F := Ideal) x0 x1 x2 x3 x4 x5 x6 x7 x8 := by rw [h53]; rfl
  simp only [ops, List.drop_succ_cons, List.drop_zero]
  after_results_simp
  simp only [Cert.LibTRef.ofBuf_toBuf, e53]
  rfl

end Cert.ReferenceIdeal.Fold

end
-- ==== Proof.RefFold.lean ====
/-
  The reference's operations read in four stretches.

  The reference is a straight line of 87 host operations. What it leaves in its result buffer is the fold of the
  operations' results over the launch contents; the fold over a list is the fold over its tail from what its head leaves,
  so the line is read in four stretches, each from arbitrary contents at its start: the first 14 operations (the
  two-layer perceptron) leave the perceptron stage in their result buffer; the next 50 (the averaging) leave the
  averaging stage of what the first stretch left and of the two index arguments; the next 8 (the update) leave the
  update stage; the last 15 (the log-softmax) leave the final stage. No stretch writes an argument it does not own, so
  the arguments reach every stretch as launched.
-/
import proofs.«108696_j84378927497724_1_alg».proof.Proof.RefReadP
import proofs.«108696_j84378927497724_1_alg».proof.Proof.LibAfter
import proofs.«108696_j84378927497724_1_alg».proof.Proof.RefFoldA
import proofs.«108696_j84378927497724_1_alg».proof.Proof.RefFoldB
import proofs.«108696_j84378927497724_1_alg».proof.Proof.RefFoldC1
import proofs.«108696_j84378927497724_1_alg».proof.Proof.RefFoldC2

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## The whole line -/

/-- What the 87 operations leave in the result buffer, from any contents: the final stage of the arguments. -/
theorem fold_eq (V : Valuation τ sig (Elt Ideal)) :
    after (ops (F := Ideal)) V (Proc.devRef .tc main_v54)
      = val_main_v54 (F := Ideal) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) := by
  rw [after_split 14 ops V, after_split 50 (ops.drop 14) _, after_split 8 ((ops.drop 14).drop 50) _]
  obtain ⟨a0, a1, a2, a7, a8⟩ := keepA V
  obtain ⟨b0, b7, b8⟩ := keepB (after ((ops (F := Ideal)).take 14) V)
  exact tailC2 _ _ _ _ _ _ _ _ _ _
    (tailC1 _ _ _ _ _ _ _ _ _ _ (midB _ _ _ _ _ _ _ _ (headA V) a1 a2) (b0.trans a0) (b7.trans a7) (b8.trans a8))

end Cert.ReferenceIdeal.Fold

end
-- ==== Proof.RefStages.lean ====
/-
  The reference's three stages as the functions of the specification.

  Stage by stage, each operation of the reference read at an index: a dot product is the sum over the contracted
  coordinate, a bias is its entry at the column, max(., 0) is entrywise, the row maximum is the fold of max from minus
  infinity over the row (taken once more against minus infinity), the row sum starts from the zero word. So the first
  stage is the perceptron of every row, the last stage is the log-softmax of the update of every row, and the stage
  between them is the averaging chain, the same operations on the same index arrays as in the kernel's program.
-/
import proofs.«108696_j84378927497724_1_alg».proof.Proof.RefReadP
import proofs.«108696_j84378927497724_1_alg».proof.Proof.Spec
import proofs.«108696_j84378927497724_1_alg».proof.Proof.Mid
import Idealize.ShloMosaic.PureOps.Ideal.Laws

noncomputable section

namespace Cert.ReferenceIdeal.Stages

open Cert.ReferenceIdeal Cert.ReferenceIdeal.Gen Cert.ReferenceIdeal.ReadP Cert.Spec
open Idealize.ShloMosaic Idealize.ShloMosaic.ValueIdx

/-! ## The perceptron -/

/-- Entry (r, k) of the first layer: the hidden unit k of row r. -/
theorem hidden_at (x0 : (⟨S50000x256, .f32⟩ : BufTy).Contents (Elt Ideal)) (x3 : (⟨S256x512, .f32⟩ : BufTy).Contents (Elt Ideal)) (x4 : (⟨S512, .f32⟩ : BufTy).Contents (Elt Ideal))
    (r : Fin 50000) (k : Fin 512) :
    val_main_v4 (F := Ideal) x0 x3 x4 (ix2 r k) = hiddenUnit (rowOf x0 r) x3 x4 k := by
  rw [val_main_v4_apply, val_main_v3_apply, val_main_v0_apply, val_main_v2_apply, val_main_v1_apply, val_main_call0_v0_apply,
    val_main_call0_cst_apply]
  unfold hiddenUnit
  refine congrArg₂ max (congrArg₂ (· + ·) (Finset.sum_congr rfl fun j _ => ?_) ?_) rfl
  · have e1 : lidx_main_v0 (ix2 r k) j = ix2 r j := funext fun a => Fin.ext (by
      match a with
      | ⟨0, _⟩ => rfl
      | ⟨1, _⟩ => rfl)
    have e2 : ridx_main_v0 (ix2 r k) j = ix2 j k := funext fun a => Fin.ext (by
      match a with
      | ⟨0, _⟩ => rfl
      | ⟨1, _⟩ => rfl)
    rw [e1, e2]; rfl
  · exact congrArg x4 (funext fun a => Fin.ext (by
      match a with
      | ⟨0, _⟩ => rfl))

/-- The first stage is the perceptron of every row. -/
theorem head_eq (x0 : (⟨S50000x256, .f32⟩ : BufTy).Contents (Elt Ideal)) (x3 : (⟨S256x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) :
    val_main_v9 (F := Ideal) x0 x3 x4 x5 x6 = mlpArr x0 x3 x4 x5 x6 := by
  funext i
  obtain ⟨r, c, rfl⟩ : ∃ (r : Fin 50000) (c : Fin 256), i = ix2 r c := ⟨i 0, i 1, eq_ix2 i⟩
  rw [mlpArr_ix2, val_main_v9_apply, val_main_v8_apply, val_main_v5_apply, val_main_v7_apply, val_main_v6_apply,
    val_main_call1_v0_apply, val_main_call1_cst_apply]
  unfold mlpEntry
  refine congrArg₂ max (congrArg₂ (· + ·) (Finset.sum_congr rfl fun k _ => ?_) ?_) rfl
  · have e1 : lidx_main_v5 (ix2 r c) k = ix2 r k := funext fun a => Fin.ext (by
      match a with
      | ⟨0, _⟩ => rfl
      | ⟨1, _⟩ => rfl)
    have e2 : ridx_main_v5 (ix2 r c) k = ix2 k c := funext fun a => Fin.ext (by
      match a with
      | ⟨0, _⟩ => rfl
      | ⟨1, _⟩ => rfl)
    rw [e1, e2, hidden_at]
  · exact congrArg x6 (funext fun a => Fin.ext (by
      match a with
      | ⟨0, _⟩ => rfl))

/-! ## The averaging -/

/-- The stage between the two is the averaging chain of the first stage and the two index arrays. -/
theorem mid_eq (x0 : (⟨S50000x256, .f32⟩ : BufTy).Contents (Elt Ideal)) (x1 x2 : (⟨S400000, .i32⟩ : BufTy).Contents (Elt Ideal)) (x3 : (⟨S256x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) :
    val_main_v47 (F := Ideal) x0 x1 x2 x3 x4 x5 x6 = Cert.KernelIdeal.Mid.mid (F := Ideal) (val_main_v9 (F := Ideal) x0 x3 x4 x5 x6) x1 x2 := rfl

/-! ## The update and the log-softmax -/

section Tail
variable (x0 : (⟨S50000x256, .f32⟩ : BufTy).Contents (Elt Ideal)) (x1 x2 : (⟨S400000, .i32⟩ : BufTy).Contents (Elt Ideal)) (x3 : (⟨S256x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))

/-- Entry (r, c) of the update. -/
theorem act_at (r : Fin 50000) (c : Fin 256) :
    val_main_v53 (F := Ideal) x0 x1 x2 x3 x4 x5 x6 x7 x8 (ix2 r c)
      = act (rowOf x0 r) x7 x8 (rowOf (val_main_v47 (F := Ideal) x0 x1 x2 x3 x4 x5 x6) r) c := by
  rw [val_main_v53_apply, val_main_v52_apply, val_main_v51_apply, val_main_v48_apply, val_main_v50_apply, val_main_v49_apply,
    val_main_call2_v0_apply, val_main_call2_cst_apply]
  unfold act
  refine congrArg₂ max (congrArg₂ (· + ·) (congrArg₂ (· + ·) (Finset.sum_congr rfl fun k _ => ?_) ?_) rfl) rfl
  · have e1 : lidx_main_v48 (ix2 r c) k = ix2 r k := funext fun a => Fin.ext (by
      match a with
      | ⟨0, _⟩ => rfl
      | ⟨1, _⟩ => rfl)
    have e2 : ridx_main_v48 (ix2 r c) k = ix2 k c := funext fun a => Fin.ext (by
      match a with
      | ⟨0, _⟩ => rfl
      | ⟨1, _⟩ => rfl)
    rw [e1, e2]; rfl
  · exact congrArg x8 (funext fun a => Fin.ext (by
      match a with
      | ⟨0, _⟩ => rfl))

/-- The index a reduced index (r) and a coordinate k of the reduced axis name is (r, k). -/
theorem lift_row (h : S50000x256.Reduces [1] S50000) (r : Fin 50000) (k : Fin 256) : h.lift (ix1 r) k = ix2 r k := by
  funext a
  refine Fin.ext ?_
  match a with
  | ⟨0, _⟩ => rfl
  | ⟨1, _⟩ => rfl

/-- Entry r of the row maxima. -/
theorem rowMax_at (r : Fin 50000) :
    val_main_call3_v2 (F := Ideal) x0 x1 x2 x3 x4 x5 x6 x7 x8 (ix1 r)
      = rowMax (act (rowOf x0 r) x7 x8 (rowOf (val_main_v47 (F := Ideal) x0 x1 x2 x3 x4 x5 x6) r)) := by
  have hred : S50000x256.Reduces [1] S50000 := by decide
  rw [val_main_call3_v2_apply, val_main_call3_v1_apply, val_main_call3_cst_0_apply]
  unfold rowMax val_main_call3_v0
  refine congrArg₂ max rfl ?_
  refine (Host.reduce_eq_fold_single FloatOps.maximumf _ _ reducesTo_S50000x256_S50000_d1 hred h_S_ (ix1 r)).trans ?_
  refine congrArg (fun f : Fin 256 → EReal => (Finset.univ : Finset (Fin 256)).fold max ninfW f) (funext fun k => ?_)
  exact (congrArg (val_main_v53 (F := Ideal) x0 x1 x2 x3 x4 x5 x6 x7 x8) (lift_row hred r k)).trans (act_at x0 x1 x2 x3 x4 x5 x6 x7 x8 r k)

/-- Entry (r, c) of the update minus its row maximum. -/
theorem shift_at (r : Fin 50000) (c : Fin 256) :
    val_main_call3_v5 (F := Ideal) x0 x1 x2 x3 x4 x5 x6 x7 x8 (ix2 r c)
      = act (rowOf x0 r) x7 x8 (rowOf (val_main_v47 (F := Ideal) x0 x1 x2 x3 x4 x5 x6) r) c
        - rowMax (act (rowOf x0 r) x7 x8 (rowOf (val_main_v47 (F := Ideal) x0 x1 x2 x3 x4 x5 x6) r)) := by
  rw [val_main_call3_v5_apply, val_main_call3_v4_apply, val_main_call3_v3_apply]
  have e : idx_main_call3_v3 (idx_main_call3_v4 (ix2 r c)) = ix1 r := funext fun a => Fin.ext (by
    match a with
    | ⟨0, _⟩ => rfl)
  rw [e, rowMax_at, act_at]
  rfl

/-- The last stage is the log-softmax of the update of every row, over the stage between. -/
theorem tail_eq :
    val_main_v54 (F := Ideal) x0 x1 x2 x3 x4 x5 x6 x7 x8 = finArr x0 x7 x8 (val_main_v47 (F := Ideal) x0 x1 x2 x3 x4 x5 x6) := by
  funext i
  obtain ⟨r, c, rfl⟩ : ∃ (r : Fin 50000) (c : Fin 256), i = ix2 r c := ⟨i 0, i 1, eq_ix2 i⟩
  rw [finArr_ix2, val_main_v54_apply, val_main_call3_v10_apply, val_main_call3_v9_apply, val_main_call3_v8_apply]
  have e : idx_main_call3_v8 (idx_main_call3_v10 (ix2 r c)) = ix1 r := funext fun a => Fin.ext (by
    match a with
    | ⟨0, _⟩ => rfl)
  rw [e, val_main_call3_v7_apply, shift_at]
  unfold finEntry lsm
  refine congrArg₂ (· - ·) rfl (congrArg Ideal.log ?_)
  refine (congrArg₂ (· + ·) Ideal.ofBits_zero_f32 (Finset.sum_congr rfl fun k _ => ?_)).trans (zero_add _)
  have ek : idx_main_call3_v7 (ix1 r) k = ix2 r k := funext fun a => Fin.ext (by
    match a with
    | ⟨0, _⟩ => rfl
    | ⟨1, _⟩ => rfl)
  rw [ek, val_main_call3_v6_apply, shift_at]
  rfl

end Tail

/-- The reference's result as a function of its arguments: the last stage over the averaging chain of the perceptron. -/
theorem result_eq (x0 : (⟨S50000x256, .f32⟩ : BufTy).Contents (Elt Ideal)) (x1 x2 : (⟨S400000, .i32⟩ : BufTy).Contents (Elt Ideal)) (x3 : (⟨S256x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) :
    val_main_v54 (F := Ideal) x0 x1 x2 x3 x4 x5 x6 x7 x8
      = finArr x0 x7 x8 (Cert.KernelIdeal.Mid.mid (F := Ideal) (mlpArr x0 x3 x4 x5 x6) x1 x2) := by
  rw [tail_eq, mid_eq, head_eq]

end Cert.ReferenceIdeal.Stages

end
-- ==== Proof.lean ====
/-
  Two row-tiled kernels around a shared averaging chain, against the untiled jnp reference, over the extended reals.

  The program maps every vertex row x through a two-layer perceptron (max(., 0) after each affine layer), averages the
  rows over hyperedges and back over vertices, adds the average into a third affine map of x, applies max(., 0) and takes
  the log-softmax along the row. The kernel program does the perceptron and the last stage in two row-tiled kernels (25
  tiles of 2000 rows; matrix products accumulate into zero; the operands are narrowed to a shorter float format first,
  which is the identity over the extended reals) and the averaging on the host between them; the reference does
  everything on the host on whole arrays, with the same averaging operations on the same index arrays.

  Both results are ONE function of the arguments: the last stage (an entry depends on one row of x and of the averaged
  array) over the averaging chain (never opened: it only needs equal arrays going in) over the perceptron (an entry
  depends on one row of x). No algebraic law beyond reading each operation at an index is needed: tiling the rows does
  not regroup any sum, both matrix products sum over the same contracted coordinate, and the row maximum and row sum are
  taken over the same 256 coordinates. So the precondition (finite inputs) is never opened.
-/
import proofs.«108696_j84378927497724_1_alg».proof.Defs
import proofs.«108696_j84378927497724_1_alg».proof.Proof.Gen.Kernel
import proofs.«108696_j84378927497724_1_alg».proof.Proof.Gen.Kernel.Skeleton
import proofs.«108696_j84378927497724_1_alg».proof.Proof.Gen.Kernel.Launch
import proofs.«108696_j84378927497724_1_alg».proof.Proof.Gen.Kernel.Points
import proofs.«108696_j84378927497724_1_alg».proof.Proof.Gen.Kernel.Frame
import proofs.«108696_j84378927497724_1_alg».proof.Proof.Gen.KernelIdeal
import proofs.«108696_j84378927497724_1_alg».proof.Proof.Gen.KernelIdeal.Skeleton
import proofs.«108696_j84378927497724_1_alg».proof.Proof.Gen.KernelIdeal.Launch
import proofs.«108696_j84378927497724_1_alg».proof.Proof.Gen.KernelIdeal.Points
import proofs.«108696_j84378927497724_1_alg».proof.Proof.Gen.KernelIdeal.Frame
import proofs.«108696_j84378927497724_1_alg».proof.Proof.Gen.ReferenceIdeal
import proofs.«108696_j84378927497724_1_alg».proof.Proof.Gen.Pre_finite_inputs
import proofs.«108696_j84378927497724_1_alg».proof.Proof.KernelValue
import proofs.«108696_j84378927497724_1_alg».proof.Proof.RefFold
import proofs.«108696_j84378927497724_1_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the result buffer at the same function of the
    arguments: the last stage over the averaging chain over the perceptron. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  have e : ∀ b : Ref Cert.ReferenceIdeal.sig .tc, StableHlo.launchContents m' c (Proc.devRef .tc b)
      = m' ((c.tc : Thread Cert.ReferenceIdeal.nD Cert.ReferenceIdeal.τ).loc b) := fun _ => rfl
  rw [Cert.ReferenceIdeal.Fold.fold_eq, Cert.ReferenceIdeal.Stages.result_eq]
  simp only [e]
  rw [h0, h1, h2, h3, h4, h5, h6, h7, h8]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
